-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S1200000 32) (main_arg2 : IVec S1200000 32) (main_arg3 : FVec F S64x64 .f32) (main_arg4 : FVec F S64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S10000x64 : Shape := ⟨2, ![10000, 64]⟩
abbrev S10000x1 : Shape := ⟨2, ![10000, 1]⟩
abbrev S1200000x64 : Shape := ⟨2, ![1200000, 64]⟩
abbrev S1x64 : Shape := ⟨2, ![1, 64]⟩
abbrev S10000 : Shape := ⟨1, ![10000]⟩

abbrev nBuf : Space → Nat
  | .hbm => 36
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S1200000, .f32⟩
  | .hbm, ⟨8, _⟩ => ⟨S_, .f32⟩
  | .hbm, ⟨9, _⟩ => ⟨S100000, .f32⟩
  | .hbm, ⟨10, _⟩ => ⟨S1200000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x64, .f32⟩
  | .hbm, ⟨20, _⟩ => ⟨S_, .i32⟩
  | .hbm, ⟨21, _⟩ => ⟨S1200000, .i32⟩
  | .hbm, ⟨22, _⟩ => ⟨S1200000, .i1⟩
  | .hbm, ⟨23, _⟩ => ⟨S_, .i32⟩
  | .hbm, ⟨24, _⟩ => ⟨S1200000, .i32⟩
  | .hbm, ⟨25, _⟩ => ⟨S1200000, .i32⟩
  | .hbm, ⟨26, _⟩ => ⟨S1200000, .i32⟩
  | .hbm, ⟨27, _⟩ => ⟨S1200000x1, .i32⟩
  | .hbm, ⟨28, _⟩ => ⟨S1200000x64, .f32⟩
  | .hbm, ⟨29, _⟩ => ⟨S_, .f32⟩
  | .hbm, ⟨30, _⟩ => ⟨S100000x64, .f32⟩
  | .hbm, ⟨31, _⟩ => ⟨S1200000x1, .i32⟩
  | .hbm, ⟨32, _⟩ => ⟨S100000x64, .f32⟩
  | .hbm, ⟨33, _⟩ => ⟨S1x64, .f32⟩
  | .hbm, ⟨34, _⟩ => ⟨S1x64, .f32⟩
  | .hbm, ⟨35, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S1x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  reduces_S10000x64_S10000 : S10000x64.Reduces [1] S10000
  shapeCasts_S10000_S10000x1 : S10000.ShapeCasts S10000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S1200000, .f32⟩
  | .hbm, ⟨8, _⟩ => ⟨S_, .f32⟩
  | .hbm, ⟨9, _⟩ => ⟨S100000, .f32⟩
  | .hbm, ⟨10, _⟩ => ⟨S1200000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1200000, .i32⟩
  | .hbm, ⟨23, _⟩ => ⟨S1200000, .i1⟩
  | .hbm, ⟨24, _⟩ => ⟨S_, .i32⟩
  | .hbm, ⟨25, _⟩ => ⟨S1200000, .i32⟩
  | .hbm, ⟨26, _⟩ => ⟨S1200000, .i32⟩
  | .hbm, ⟨27, _⟩ => ⟨S1200000, .i32⟩
  | .hbm, ⟨28, _⟩ => ⟨S1200000x1, .i32⟩
  | .hbm, ⟨29, _⟩ => ⟨S1200000x64, .f32⟩
  | .hbm, ⟨30, _⟩ => ⟨S_, .f32⟩
  | .hbm, ⟨31, _⟩ => ⟨S100000x64, .f32⟩
  | .hbm, ⟨32, _⟩ => ⟨S1200000x1, .i32⟩
  | .hbm, ⟨33, _⟩ => ⟨S100000x64, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000, .f32⟩
  | .hbm, ⟨41, _⟩ => ⟨S100000x1, .f32⟩
  | .hbm, ⟨42, _⟩ => ⟨S_, .f32⟩
  | .hbm, ⟨43, _⟩ => ⟨S100000x1, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000, .f32⟩
  | .hbm, ⟨50, _⟩ => ⟨S100000x1, .f32⟩
  | .hbm, ⟨51, _⟩ => ⟨S_, .f32⟩
  | .hbm, ⟨52, _⟩ => ⟨S100000x1, .f32⟩
  | .hbm, ⟨53, _⟩ => ⟨S100000x1, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_cst : Ref sig .tc := ⟨.hbm, 68, rfl⟩
abbrev main_call0_v0 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its RESULT named.  @main is four segments: host operations (the degrees and their
  inverse square roots), the pre-scaling region, host operations (the gather by destination and the scatter-add by
  source), and the main region (matrix product, residual, layer norm, ReLU).  `Gen.W0 … Gen.W4` are the TensorCore's
  buffer contents at the five boundaries: each host stretch applies its operations to the contents before it, each
  region replaces its windows' arrays by what its write-backs leave.  Every weakly fair execution terminates with
  the result buffer at its contents at the last boundary, `Gen.W4 m ρ c` — which is what the main region's write-backs
  leave in its output window's array (`result_at_exit`) — and with the six argument arrays as launched.
-/
import proofs.«114904_j84954453115089_2_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the last boundary the result buffer holds what the main region's write-backs leave in its output window's
    array (window 6 of the second pipeline). -/
theorem result_at_exit (c : Dev nD) :
    W4 m ρ c (Proc.devRef .tc main_v22) = (dat1 (V3 m ρ) c).arrAt 6 cfg1.N :=
  W4_arr m ρ c 6

set_option backward.isDefEq.respectTransparency.types false in
/-- Every weakly fair execution of @main terminates, nothing faulting, with the result buffer at the last boundary's
    contents and the six argument arrays as launched. -/
theorem run_result : θ_run defs (onTc (τ := τ) (main (F := F))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v22 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.ResultRun

end
-- ==== Proof.PrescaleValue.lean ====
/-
  The pre-scaling region's output array.  The region tiles the 100000 node rows into 10 blocks of 10000 rows; at
  point `t` the body multiplies block `t` of the feature array (window 0, rows 10000·t …) by block `t` of the column
  of inverse square-root degrees (window 1, shape [10000, 1]), broadcast along the 64 feature lanes.  Each output
  element therefore depends on ONE element of each operand, in the same row: the array the region leaves is
      scaled a d (r, j) = a (r, j) · d (r, 0)
  of the arrays `a`, `d` the region finds in the two input windows, whatever those are (`V`).
-/
import proofs.«114904_j84954453115089_2_alg».proof.Proof.Gen.KernelIdeal.Frame
import Idealize.ShloMosaic.Lib.Pipeline.Value
import Idealize.ShloMosaic.Lib.ValueIdx

set_option maxRecDepth 16384

noncomputable section

namespace Cert.KernelIdeal.Prescale

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- Row `r` of the feature array times the row's scale: `a (r, j) · d (r, 0)`. -/
abbrev scaled (a : S100000x64.Idx → Elt Ideal .f32) (d : S100000x1.Idx → Elt Ideal .f32) : S100000x64.Idx → Elt Ideal .f32 :=
  fun i => a i * d (ix2 (n0 := 100000) (n1 := 1) (i 0) 0)

/-- The product of one element of each operand, at two given indices. -/
abbrev prodAt (a : S100000x64.Idx → Elt Ideal .f32) (d : S100000x1.Idx → Elt Ideal .f32) (i : S100000x64.Idx) (k : S100000x1.Idx) :
    Elt Ideal .f32 := a i * d k

theorem zero_offsets : (![0, 0] : Fin 2 → Nat) = fun _ => 0 := funext fun a => by fin_cases a <;> rfl

/-- The body's one stored value at row `p`, lane `q` of the block: the feature block's element times the scale
    block's element of the same row. -/
theorem payload_apply (x0 : Vec Ideal S10000x64 .f32) (x1 : Vec Ideal S10000x1 .f32) (p : Fin 10000) (q : Fin 64) :
    k0_pay1 x0 x1 (ix2 p q) = x0 (ix2 p q) * x1 (ix2 p 0) := by
  unfold k0_pay1
  rw [mulf_apply, shapeCast_self]
  refine congrArg (x0 (ix2 p q) * ·) ?_
  refine broadcastTo_apply _ _ _ (ix2 p 0) fun a => ?_
  match a with
  | ⟨0, _⟩ => rfl
  | ⟨1, _⟩ => rfl

/-- The three windows move together: at point `t` each is at row block `t`, column block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of `scaled` of the two input arrays. -/
theorem flushed_eq (c : Dev nD) (t : Fin cfg0.N) :
    (dat0 V c).flushed 2 t = ((cfg0.win 2).blk t).view.read (Elt Ideal) (scaled (V c main_arg0) (V c main_v8)) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S10000x1) zero_offsets]
  obtain ⟨e0, e1, e2, e3, e4, e5⟩ := index_facts t
  funext j
  obtain ⟨p, q, rfl⟩ : ∃ (p : Fin 10000) (q : Fin 64), j = ix2 p q := ⟨j 0, j 1, eq_ix2 j⟩
  refine (payload_apply _ _ p q).trans ?_
  show prodAt (V c main_arg0) (V c main_v8) (((cfg0.win 0).blk t).view.emb (ix2 p q)) (((cfg0.win 1).blk t).view.emb (ix2 p 0))
    = scaled (V c main_arg0) (V c main_v8) (((cfg0.win 2).blk t).view.emb (ix2 p q))
  have h0 : ((cfg0.win 0).blk t).view.emb (ix2 p q) = ((cfg0.win 2).blk t).view.emb (ix2 p q) := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * q.val = win0_2.index t (1 : Fin 2) * 64 + 1 * q.val; omega
  have h1 : ((cfg0.win 1).blk t).view.emb (ix2 p 0) = ix2 (n0 := 100000) (n1 := 1) ((((cfg0.win 2).blk t).view.emb (ix2 p q)) 0) 0 := by
    funext a; apply Fin.ext
    match a with
    | ⟨0, _⟩ => show win0_1.index t (0 : Fin 2) * 10000 + 1 * p.val = win0_2.index t (0 : Fin 2) * 10000 + 1 * p.val; omega
    | ⟨1, _⟩ => show win0_1.index t (1 : Fin 2) * 1 + 1 * 0 = 0; omega
  rw [h0, h1]

/-- An index of the output array is in point `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v9).slice (win0_2.rect t)).set ↔ _
  rw [View.set_slice_whole, Rect.mem_set_unit]
  exact Iff.rfl

/-- The ten row blocks tile the array: row `r` is in the block of point `r / 10000`. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  let t : Fin cfg0.N := ⟨(i 0).val / 10000, by show (i 0).val / 10000 < grid0.N; omega⟩
  obtain ⟨-, -, -, -, e4, e5⟩ := index_facts t
  have ht : t.val = (i 0).val / 10000 := rfl
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE ARRAY the pre-scaling region leaves: every row of the feature array times that row's scale. -/
theorem array_eq (c : Dev nD) : (dat0 V c).arrAt 2 cfg0.N = scaled (V c main_arg0) (V c main_v8) :=
  (dat0 V c).arrAt_eq_of_cover 2 (scaled (V c main_arg0) (V c main_v8)) (fun t _ => flushed_eq V c t) covered

end Cert.KernelIdeal.Prescale

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.RowNorm.lean ====
/-
  The mathematics of one node's row.  A graph-convolution layer with a residual connection, layer normalisation
  and ReLU treats every node (row) independently once the aggregated features are known:
      conv k   = (Σ_j (agg j · s) · w j k) + x k           the aggregated row, rescaled by the node's inverse
                                                           square-root degree `s`, times the weight matrix, plus the
                                                           node's own features
      mean     = (Σ_k h k) / 64
      variance = (Σ_k (h k − mean)²) / 64
      out q    = max (((h q − mean) · rsqrt (variance + ε)) · γ q + β q, 0)
  over the extended reals, with the constants 64, ε and 0 the exact values of their float words.  Both programs
  compute exactly these expressions, in this grouping, so no algebraic law is needed to join them: only that a sum over
  a block's 64 lanes and a sum over the array's 64 columns are the same sum.
-/
import Idealize.ShloMosaic.PureOps.Ideal

noncomputable section

namespace Cert.GcnRow

open Idealize.ShloMosaic
open scoped BigOperators

/-- The row length, 64.0, as the float word both programs divide by. -/
abbrev lanes : EReal := Ideal.ofBits .f32 0x42800000#32
/-- The layer norm's ε, the float nearest 1e-5. -/
abbrev eps : EReal := Ideal.ofBits .f32 0x3727C5AC#32
/-- The ReLU's threshold, the zero word. -/
abbrev floor0 : EReal := Ideal.ofBits .f32 0x00000000#32

/-- The graph-convolution row: aggregated features rescaled by `s`, times the weights, plus the residual. -/
def conv (agg : Fin 64 → EReal) (s : EReal) (w : Fin 64 → Fin 64 → EReal) (x : Fin 64 → EReal) (k : Fin 64) : EReal :=
  (∑ j : Fin 64, (agg j * s) * w j k) + x k

/-- A row's mean. -/
def mean (h : Fin 64 → EReal) : EReal := Ideal.div (∑ k : Fin 64, h k) lanes

/-- A row's (biased) variance. -/
def variance (h : Fin 64 → EReal) : EReal := Ideal.div (∑ k : Fin 64, (h k - mean h) * (h k - mean h)) lanes

/-- Layer normalisation with scale `g` and shift `b`, then ReLU, at lane `q`. -/
def normRelu (h g b : Fin 64 → EReal) (q : Fin 64) : EReal :=
  max ((h q - mean h) * Ideal.rsqrt (variance h + eps) * g q + b q) floor0

end Cert.GcnRow

end
-- ==== Proof.MainPayload.lean ====
/-
  The main region's body at one element.  At a grid point the body holds a block of 10000 node rows: the aggregated
  features `v0` [10000, 64], the nodes' inverse square-root degrees `v2` [10000, 1], the weights `v7` [64, 64], the
  nodes' own features `v10` [10000, 64], and the layer norm's scale `v28` and shift `v32` [1, 64].  Its one stored value
  is, row by row, `GcnRow.normRelu (GcnRow.conv …)`: the row of the block is rescaled, multiplied by the weights (a
  product accumulated from zero: the plain sum over the 64 contracted lanes; the casts to bf16 are the identity on
  the extended reals), the residual is added, and the row is normalised over its 64 lanes and clamped at zero.
  Every operation is either pointwise or row-local (a lane sum kept as a column and broadcast back), so element
  `(p, q)` of the stored block depends only on row `p` of the loaded blocks.
-/
import proofs.«114904_j84954453115089_2_alg».proof.Proof.Gen.KernelIdeal.Skeleton
import proofs.«114904_j84954453115089_2_alg».proof.Proof.LibColumns
import proofs.«114904_j84954453115089_2_alg».proof.Proof.RowNorm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MainBody

open Idealize.ShloMosaic Idealize.ShloMosaic.ValueIdx
open Cert.KernelIdeal Cert.KernelIdeal.Gen Cert.GcnRow
open scoped BigOperators

/-- The matrix product's dimension record: rows × 64 contracted lanes times 64 × columns. -/
abbrev mm : DotDims S10000x64 S64x64 S10000x64 := dot_S10000x64_S64x64_S10000x64_1_0_0_1_n_n

/-! ## The matrix product read at an element -/

theorem lhs_row (i : S10000x64.Idx) (c : mm.contr.Idx) : (mm.lhsIdx i c 0).val = (i 0).val := by
  unfold DotDims.lhsIdx
  rw [dif_neg (show ¬(0 : Fin S10000x64.rank) ∈ mm.lhsBatch by decide), dif_pos (show (0 : Fin S10000x64.rank) ∈ mm.lhsNonContracting by decide)]
  rfl
theorem lhs_lane (i : S10000x64.Idx) (c : mm.contr.Idx) : (mm.lhsIdx i c 1).val = (c ⟨0, by decide⟩).val :=
  mm.lhsIdx_val_of_single rfl i c
theorem rhs_lane (i : S10000x64.Idx) (c : mm.contr.Idx) : (mm.rhsIdx i c 0).val = (c ⟨0, by decide⟩).val :=
  mm.rhsIdx_val_of_single rfl i c
theorem rhs_col (i : S10000x64.Idx) (c : mm.contr.Idx) : (mm.rhsIdx i c 1).val = (i 1).val := by
  unfold DotDims.rhsIdx
  rw [dif_neg (show ¬(1 : Fin S64x64.rank) ∈ mm.rhsBatch by decide), dif_pos (show (1 : Fin S64x64.rank) ∈ mm.rhsNonContracting by decide)]
  rfl

/-- A product accumulated from the zero block is, at `(p, k)`, the sum over the 64 contracted lanes of row `p` of the
    left operand times column `k` of the right one. -/
theorem matmul_zero_apply (l : FVec Ideal S10000x64 .bf16) (r : FVec Ideal S64x64 .bf16) (p : Fin 10000) (k : Fin 64) :
    matmul mm none l r (constant (F := Ideal) S10000x64 .f32 0x00000000#32) (ix2 p k) = ∑ j : Fin 64, l (ix2 p j) * r (ix2 j k) := by
  simp only [matmul]
  rw [Ideal.matmul_constant_zero_apply, ← Equiv.sum_comp (contrEquiv1 mm 64 rfl rfl).symm]
  refine Finset.sum_congr rfl fun j _ => ?_
  have hj := contrEquiv1_symm_val mm 64 rfl rfl j
  have el : mm.lhsIdx (ix2 p k) ((contrEquiv1 mm 64 rfl rfl).symm j) = ix2 p j := funext fun a => Fin.ext (by
    match a with
    | ⟨0, _⟩ => exact lhs_row _ _
    | ⟨1, _⟩ => exact (lhs_lane _ _).trans hj)
  have er : mm.rhsIdx (ix2 p k) ((contrEquiv1 mm 64 rfl rfl).symm j) = ix2 j k := funext fun a => Fin.ext (by
    match a with
    | ⟨0, _⟩ => exact (rhs_lane _ _).trans hj
    | ⟨1, _⟩ => exact rhs_col _ _)
  rw [el, er]

/-! ## The convolution block -/

/-- The block before normalisation: rescaled aggregated features times the weights, plus the residual. -/
def convBlock (v0 : Vec Ideal S10000x64 .f32) (v2 : Vec Ideal S10000x1 .f32) (v7 : Vec Ideal S64x64 .f32) (v10 : Vec Ideal S10000x64 .f32) :
    FVec Ideal S10000x64 .f32 :=
  addf (matmul mm none
      (truncf .bf16 (mulf (shapeCast S10000x64 v0 shapeCasts_S10000x64_S10000x64)
        (broadcastTo S10000x64 (shapeCast S10000x1 v2 shapeCasts_S10000x1_S10000x1) broadcasts_S10000x1_S10000x64)) bitsLt_bf16_f32)
      (truncf .bf16 v7 bitsLt_bf16_f32) (constant (F := Ideal) S10000x64 .f32 0x00000000#32)) v10

theorem convBlock_apply (v0 : Vec Ideal S10000x64 .f32) (v2 : Vec Ideal S10000x1 .f32) (v7 : Vec Ideal S64x64 .f32) (v10 : Vec Ideal S10000x64 .f32)
    (p : Fin 10000) (k : Fin 64) :
    convBlock v0 v2 v7 v10 (ix2 p k)
      = conv (fun j => v0 (ix2 p j)) (v2 (ix2 p (0 : Fin 1))) (fun j k => v7 (ix2 j k)) (fun k => v10 (ix2 p k)) k := by
  unfold convBlock conv
  rw [addf_apply, matmul_zero_apply]
  refine congrArg (· + v10 (ix2 p k)) (Finset.sum_congr rfl fun j _ => ?_)
  rw [truncf_apply, truncf_apply, mulf_apply, shapeCast_self, shapeCast_self, Cert.Columns.broadcastTo_a1_ab_apply]

/-! ## The normalisation block -/

/-- A lane sum from zero, read at row `p`: the sum of the row's 64 entries. -/
theorem lane_sum (src : FVec Ideal S10000x64 .f32) (p : Fin 10000) :
    multiReduction .add [1] S10000 src 0x00000000#32 reduces_S10000x64_S10000 (.inl rfl) rfl (ix1 p) = ∑ k : Fin 64, src (ix2 p k) := by
  refine (Ideal.multiReduction_add_single src 0x00000000#32 reduces_S10000x64_S10000 (.inl rfl) rfl (ix1 p)).trans ?_
  exact Finset.sum_congr rfl fun k _ => congrArg src (funext fun a => Fin.ext (by match a with | ⟨0, _⟩ => rfl | ⟨1, _⟩ => rfl))

/-- The rows' means, kept as a column. -/
def meanCol (h : FVec Ideal S10000x64 .f32) : FVec Ideal S10000x1 .f32 :=
  divf (shapeCast S10000x1 (multiReduction .add [1] S10000 h 0x00000000#32 reduces_S10000x64_S10000 (.inl rfl) rfl) shapeCasts_S10000_S10000x1)
    (broadcast S10000x1 (Scalar.ofBits (F := Ideal) .f32 0x42800000#32))

/-- The block with each row's mean subtracted. -/
def centered (h : FVec Ideal S10000x64 .f32) : FVec Ideal S10000x64 .f32 :=
  subf h (broadcastTo S10000x64 (meanCol h) broadcasts_S10000x1_S10000x64)

/-- The rows' variances, kept as a column. -/
def varCol (h : FVec Ideal S10000x64 .f32) : FVec Ideal S10000x1 .f32 :=
  divf (shapeCast S10000x1 (multiReduction .add [1] S10000 (mulf (centered h) (centered h)) 0x00000000#32 reduces_S10000x64_S10000 (.inl rfl) rfl) shapeCasts_S10000_S10000x1)
    (broadcast S10000x1 (Scalar.ofBits (F := Ideal) .f32 0x42800000#32))

/-- Layer normalisation with scale `g` and shift `b` (rows of 64), then ReLU, of the block `h`. -/
def normBlock (h : FVec Ideal S10000x64 .f32) (g b : Vec Ideal S1x64 .f32) : FVec Ideal S10000x64 .f32 :=
  maximumf
    (addf
      (mulf
        (mulf (centered h)
          (broadcastTo S10000x64 (rsqrt (addf (varCol h) (broadcast S10000x1 (Scalar.ofBits (F := Ideal) .f32 0x3727C5AC#32)))) broadcasts_S10000x1_S10000x64))
        (broadcastTo S10000x64 (shapeCast S1x64 g shapeCasts_S1x64_S1x64) broadcasts_S1x64_S10000x64))
      (broadcastTo S10000x64 (shapeCast S1x64 b shapeCasts_S1x64_S1x64) broadcasts_S1x64_S10000x64))
    (broadcast S10000x64 (Scalar.ofBits (F := Ideal) .f32 0x00000000#32))

theorem meanCol_apply (h : FVec Ideal S10000x64 .f32) (p : Fin 10000) :
    meanCol h (ix2 p (0 : Fin 1)) = mean (fun k => h (ix2 p k)) := by
  unfold meanCol mean
  rw [divf_apply, Cert.Columns.shapeCast_a_a1_apply, lane_sum, broadcast_apply]
  rfl

theorem centered_apply (h : FVec Ideal S10000x64 .f32) (p : Fin 10000) (k : Fin 64) :
    centered h (ix2 p k) = h (ix2 p k) - mean (fun k => h (ix2 p k)) := by
  unfold centered
  rw [subf_apply, Cert.Columns.broadcastTo_a1_ab_apply, meanCol_apply]

theorem varCol_apply (h : FVec Ideal S10000x64 .f32) (p : Fin 10000) :
    varCol h (ix2 p (0 : Fin 1)) = variance (fun k => h (ix2 p k)) := by
  unfold varCol variance
  rw [divf_apply, Cert.Columns.shapeCast_a_a1_apply, lane_sum, broadcast_apply]
  refine congrArg (Ideal.div · _) (Finset.sum_congr rfl fun k _ => ?_)
  rw [mulf_apply, centered_apply]

theorem normBlock_apply (h : FVec Ideal S10000x64 .f32) (g b : Vec Ideal S1x64 .f32) (p : Fin 10000) (q : Fin 64) :
    normBlock h g b (ix2 p q)
      = normRelu (fun k => h (ix2 p k)) (fun k => g (ix2 (0 : Fin 1) k)) (fun k => b (ix2 (0 : Fin 1) k)) q := by
  unfold normBlock normRelu
  rw [maximumf_apply, addf_apply, mulf_apply, mulf_apply, centered_apply, Cert.Columns.broadcastTo_a1_ab_apply,
    broadcastTo_1b_ab_apply, broadcastTo_1b_ab_apply, shapeCast_self, shapeCast_self, broadcast_apply]
  show max ((h (ix2 p q) - mean fun k => h (ix2 p k)) * Ideal.rsqrt (varCol h (ix2 p (0 : Fin 1)) + eps) * g (ix2 (0 : Fin 1) q) + b (ix2 (0 : Fin 1) q)) floor0 = _
  rw [varCol_apply]

/-! ## The payload -/

/-- The body's stored value is the normalisation block of the convolution block. -/
theorem payload_split (v0 : Vec Ideal S10000x64 .f32) (v2 : Vec Ideal S10000x1 .f32) (v7 : Vec Ideal S64x64 .f32)
    (v10 : Vec Ideal S10000x64 .f32) (v28 v32 : Vec Ideal S1x64 .f32) :
    k1_pay1 v0 v2 v7 v10 v28 v32 = normBlock (convBlock v0 v2 v7 v10) v28 v32 := rfl

/-- THE PAYLOAD AT AN ELEMENT: row `p`, lane `q` of the stored block is the normalised, clamped convolution row of
    row `p` of the loaded blocks. -/
theorem payload_apply (v0 : Vec Ideal S10000x64 .f32) (v2 : Vec Ideal S10000x1 .f32) (v7 : Vec Ideal S64x64 .f32)
    (v10 : Vec Ideal S10000x64 .f32) (v28 v32 : Vec Ideal S1x64 .f32) (p : Fin 10000) (q : Fin 64) :
    k1_pay1 v0 v2 v7 v10 v28 v32 (ix2 p q)
      = normRelu (conv (fun j => v0 (ix2 p j)) (v2 (ix2 p (0 : Fin 1))) (fun j k => v7 (ix2 j k)) (fun k => v10 (ix2 p k)))
          (fun k => v28 (ix2 (0 : Fin 1) k)) (fun k => v32 (ix2 (0 : Fin 1) k)) q := by
  rw [payload_split, normBlock_apply]
  refine congrArg (fun h => normRelu h _ _ q) (funext fun k => ?_)
  exact convBlock_apply v0 v2 v7 v10 p k

end Cert.KernelIdeal.MainBody

end
-- ==== Proof.MainValue.lean ====
/-
  The main region's output array.  The region tiles the 100000 node rows into 10 blocks of 10000 rows; at point `t`
  the body reads block `t` of the aggregated features (window 0), of the column of inverse square-root degrees
  (window 1) and of the nodes' own features (window 2), and the whole weight matrix, scale row and shift row
  (windows 3, 4, 5, the same block at every point), and writes block `t` of the result (window 6).  An element of the
  stored block depends only on its own row of the three tiled operands, so the array the region leaves is
      layer agg d x w g b (r, q) = normRelu (conv (agg (r, ·)) (d (r, 0)) w (x (r, ·))) (g (0, ·)) (b (0, ·)) q
  of the six arrays the region finds in its input windows, whatever those are (`V`).
-/
import proofs.«114904_j84954453115089_2_alg».proof.Proof.Gen.KernelIdeal.Frame
import proofs.«114904_j84954453115089_2_alg».proof.Proof.MainPayload
import Idealize.ShloMosaic.Lib.Pipeline.Value
import Idealize.ShloMosaic.Lib.ValueIdx

set_option maxRecDepth 16384

noncomputable section

namespace Cert.KernelIdeal.MainRegion

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.GcnRow

/-- One element of the layer, with every operand read at a GIVEN index: the aggregated row at `f0 j`, the row's
    scale at `i1`, the node's own row at `f2 k`, the weights at `f3 j k`, scale and shift at `f4 k`, `f5 k`. -/
abbrev elemAt (agg : S100000x64.Idx → Elt Ideal .f32) (d : S100000x1.Idx → Elt Ideal .f32) (x : S100000x64.Idx → Elt Ideal .f32)
    (w : S64x64.Idx → Elt Ideal .f32) (g b : S1x64.Idx → Elt Ideal .f32)
    (f0 : Fin 64 → S100000x64.Idx) (i1 : S100000x1.Idx) (f2 : Fin 64 → S100000x64.Idx) (f3 : Fin 64 → Fin 64 → S64x64.Idx)
    (f4 f5 : Fin 64 → S1x64.Idx) (q : Fin 64) : EReal :=
  normRelu (conv (fun j => agg (f0 j)) (d i1) (fun j k => w (f3 j k)) (fun k => x (f2 k))) (fun k => g (f4 k)) (fun k => b (f5 k)) q

/-- The layer's output at node `r`, lane `q`. -/
abbrev rowOut (agg : S100000x64.Idx → Elt Ideal .f32) (d : S100000x1.Idx → Elt Ideal .f32) (x : S100000x64.Idx → Elt Ideal .f32)
    (w : S64x64.Idx → Elt Ideal .f32) (g b : S1x64.Idx → Elt Ideal .f32) (r : Fin 100000) (q : Fin 64) : EReal :=
  elemAt agg d x w g b (fun j => ix2 r j) (ix2 r (0 : Fin 1)) (fun k => ix2 r k) (fun j k => ix2 j k)
    (fun k => ix2 (0 : Fin 1) k) (fun k => ix2 (0 : Fin 1) k) q

/-- The layer as one function of the six arrays: graph-convolution row, residual, layer norm, ReLU, node by node. -/
abbrev layer (agg : S100000x64.Idx → Elt Ideal .f32) (d : S100000x1.Idx → Elt Ideal .f32) (x : S100000x64.Idx → Elt Ideal .f32)
    (w : S64x64.Idx → Elt Ideal .f32) (g b : S1x64.Idx → Elt Ideal .f32) : S100000x64.Idx → Elt Ideal .f32 :=
  fun i => rowOut agg d x w g b (i 0) (i 1)

theorem zero_offsets : (![0, 0] : Fin 2 → Nat) = fun _ => 0 := funext fun a => by fin_cases a <;> rfl

/-- The tiled windows (0, 1, 2 and the output, 6) are at row block `t`, column block 0; the untiled ones (3, 4, 5) at
    block (0, 0) at every point. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- What point `t` writes back is block `t` of `layer` of the six input arrays. -/
theorem flushed_eq (c : Dev nD) (t : Fin cfg1.N) :
    (dat1 V c).flushed 6 t = ((cfg1.win 6).blk t).view.read (Elt Ideal)
      (layer (V c main_v19) (V c main_v8) (V c main_arg0) (V c main_arg3) (V c main_v20) (V c main_v21)) := by
  show (cfg1.win 6).cut (grid1.coords t) ((dat1 V c).after 6 t) = _
  rw [after1_6]
  unfold out1_6
  rw [View.canon_unit_zero zero_offsets]
  simp only [View.ld_unit_zero (S := S10000x64) zero_offsets, View.ld_unit_zero (S := S10000x1) zero_offsets,
    View.ld_unit_zero (S := S64x64) zero_offsets, View.ld_unit_zero (S := S1x64) zero_offsets]
  obtain ⟨a0, a1, b0, b1, c0, c1, d0, d1, g0, g1, h0, h1, o0, o1⟩ := index_facts t
  have hN : grid1.N = 10 := N_1
  have ht : t.val < 10 := by have h : t.val < grid1.N := t.isLt; omega
  funext j
  obtain ⟨p, q, rfl⟩ : ∃ (p : Fin 10000) (q : Fin 64), j = ix2 p q := ⟨j 0, j 1, eq_ix2 j⟩
  have hp : p.val < 10000 := p.isLt
  let r : Fin 100000 := ⟨t.val * 10000 + p.val, by omega⟩
  refine (MainBody.payload_apply _ _ _ _ _ _ p q).trans ?_
  show elemAt (V c main_v19) (V c main_v8) (V c main_arg0) (V c main_arg3) (V c main_v20) (V c main_v21)
      (fun j => ((cfg1.win 0).blk t).view.emb (ix2 p j)) (((cfg1.win 1).blk t).view.emb (ix2 p (0 : Fin 1)))
      (fun k => ((cfg1.win 2).blk t).view.emb (ix2 p k)) (fun j k => ((cfg1.win 3).blk t).view.emb (ix2 j k))
      (fun k => ((cfg1.win 4).blk t).view.emb (ix2 (0 : Fin 1) k)) (fun k => ((cfg1.win 5).blk t).view.emb (ix2 (0 : Fin 1) k)) q
    = layer (V c main_v19) (V c main_v8) (V c main_arg0) (V c main_arg3) (V c main_v20) (V c main_v21)
        (((cfg1.win 6).blk t).view.emb (ix2 p q))
  have e6 : ((cfg1.win 6).blk t).view.emb (ix2 p q) = ix2 r q := by
    funext a; apply Fin.ext
    match a with
    | ⟨0, _⟩ => show win1_6.index t (0 : Fin 2) * 10000 + 1 * p.val = t.val * 10000 + p.val; omega
    | ⟨1, _⟩ => show win1_6.index t (1 : Fin 2) * 64 + 1 * q.val = q.val; omega
  have e0 : (fun j : Fin 64 => ((cfg1.win 0).blk t).view.emb (ix2 p j)) = fun j => ix2 r j := by
    funext j a; apply Fin.ext
    match a with
    | ⟨0, _⟩ => show win1_0.index t (0 : Fin 2) * 10000 + 1 * p.val = t.val * 10000 + p.val; omega
    | ⟨1, _⟩ => show win1_0.index t (1 : Fin 2) * 64 + 1 * j.val = j.val; omega
  have e1 : ((cfg1.win 1).blk t).view.emb (ix2 p (0 : Fin 1)) = ix2 r (0 : Fin 1) := by
    funext a; apply Fin.ext
    match a with
    | ⟨0, _⟩ => show win1_1.index t (0 : Fin 2) * 10000 + 1 * p.val = t.val * 10000 + p.val; omega
    | ⟨1, _⟩ => show win1_1.index t (1 : Fin 2) * 1 + 1 * 0 = 0; omega
  have e2 : (fun k : Fin 64 => ((cfg1.win 2).blk t).view.emb (ix2 p k)) = fun k => ix2 r k := by
    funext k a; apply Fin.ext
    match a with
    | ⟨0, _⟩ => show win1_2.index t (0 : Fin 2) * 10000 + 1 * p.val = t.val * 10000 + p.val; omega
    | ⟨1, _⟩ => show win1_2.index t (1 : Fin 2) * 64 + 1 * k.val = k.val; omega
  have e3 : (fun j k : Fin 64 => ((cfg1.win 3).blk t).view.emb (ix2 j k)) = fun j k => ix2 j k := by
    funext j k a; apply Fin.ext
    match a with
    | ⟨0, _⟩ => show win1_3.index t (0 : Fin 2) * 64 + 1 * j.val = j.val; omega
    | ⟨1, _⟩ => show win1_3.index t (1 : Fin 2) * 64 + 1 * k.val = k.val; omega
  have e4 : (fun k : Fin 64 => ((cfg1.win 4).blk t).view.emb (ix2 (0 : Fin 1) k)) = fun k => ix2 (0 : Fin 1) k := by
    funext k a; apply Fin.ext
    match a with
    | ⟨0, _⟩ => show win1_4.index t (0 : Fin 2) * 1 + 1 * 0 = 0; omega
    | ⟨1, _⟩ => show win1_4.index t (1 : Fin 2) * 64 + 1 * k.val = k.val; omega
  have e5 : (fun k : Fin 64 => ((cfg1.win 5).blk t).view.emb (ix2 (0 : Fin 1) k)) = fun k => ix2 (0 : Fin 1) k := by
    funext k a; apply Fin.ext
    match a with
    | ⟨0, _⟩ => show win1_5.index t (0 : Fin 2) * 1 + 1 * 0 = 0; omega
    | ⟨1, _⟩ => show win1_5.index t (1 : Fin 2) * 64 + 1 * k.val = k.val; omega
  rw [e0, e1, e2, e3, e4, e5, e6]

/-- An index of the result array is in point `t`'s block iff each coordinate is in the block's range on its axis. -/
theorem mem_block (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v22).slice (win1_6.rect t)).set ↔ _
  rw [View.set_slice_whole, Rect.mem_set_unit]
  exact Iff.rfl

/-- The ten row blocks tile the array: row `r` is in the block of point `r / 10000`. -/
theorem covered (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : grid1.N = 10 := N_1
  let t : Fin cfg1.N := ⟨(i 0).val / 10000, by show (i 0).val / 10000 < grid1.N; omega⟩
  obtain ⟨-, -, -, -, -, -, -, -, -, -, -, -, o0, o1⟩ := index_facts t
  have ht : t.val = (i 0).val / 10000 := rfl
  refine ⟨t, flush1_6 t, ?_⟩
  rw [mem_block]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 64 ≤ (i 1).val ∧ (i 1).val < win1_6.index t (1 : Fin 2) * 64 + 64; omega

/-- THE ARRAY the main region leaves: the layer of the six arrays it finds in its input windows. -/
theorem array_eq (c : Dev nD) : (dat1 V c).arrAt 6 cfg1.N
    = layer (V c main_v19) (V c main_v8) (V c main_arg0) (V c main_arg3) (V c main_v20) (V c main_v21) :=
  (dat1 V c).arrAt_eq_of_cover 6 _ (fun t _ => flushed_eq V c t) covered

end Cert.KernelIdeal.MainRegion

end
-- ==== Proof.KernelValue.lean ====
/-
  The idealized kernel's result as ONE function of the launch arrays.  Following the buffer contents through the
  four segments of @main:
    • the first host stretch computes the nodes' degrees by a scatter-add of ones by source index, clamps them below
      and raises them to the power −1/2 (`invSqrtDeg`), and reshapes the result to a column (`degColumn`);
    • the pre-scaling region leaves `Prescale.scaled x (degColumn src)`: every feature row times its node's scale;
    • the second host stretch gathers the scaled rows by destination index (negative indices wrapped once) and
      scatter-adds them by source index (`aggregate`), and reshapes the layer norm's scale and shift to rows;
    • the main region leaves `MainRegion.layer` of what it finds.
  The gather and the scatter-add are never opened: they are the same functions in the reference, applied there to
  the same arrays.
-/
import proofs.«114904_j84954453115089_2_alg».proof.Proof.KernelRun
import proofs.«114904_j84954453115089_2_alg».proof.Proof.PrescaleValue
import proofs.«114904_j84954453115089_2_alg».proof.Proof.MainValue
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

/-! ## The host computations -/

/-- The nodes' inverse square-root degrees: ones scatter-added by source index into zeros, clamped below by the
    float nearest 1e-12, raised to the power −1/2. -/
def invSqrtDeg (src : IVec S1200000 32) : FVec Ideal S100000 .f32 :=
  Host.powf
    (maximumf
      (Host.scatterAdd scatter_S100000_S1200000x1_S1200000_n_0_0_1
        (broadcastInDim S100000 ![] bcast_S_S100000 (constant (F := Ideal) S_ .f32 0x00000000#32))
        (broadcastInDim S1200000x1 ![0] bcast_S1200000_S1200000x1_0 src)
        (broadcastInDim S1200000 ![] bcast_S_S1200000 (constant (F := Ideal) S_ .f32 0x3F800000#32)))
      (broadcastInDim S100000 ![] bcast_S_S100000 (constant (F := Ideal) S_ .f32 0x2B8CBCCC#32)))
    (broadcastInDim S100000 ![] bcast_S_S100000 (constant (F := Ideal) S_ .f32 0xBF000000#32))

/-- The same as a column [100000, 1]. -/
def degColumn (src : IVec S1200000 32) : FVec Ideal S100000x1 .f32 :=
  shapeCast S100000x1 (invSqrtDeg src) shapeCasts_S100000_S100000x1

/-- The sparse aggregation: rows of `y` gathered by destination index (a negative index wrapped by the number of
    nodes), scatter-added by source index into zeros. -/
def aggregate (y : FVec Ideal S100000x64 .f32) (src dst : IVec S1200000 32) : FVec Ideal S100000x64 .f32 :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 src)
    (Host.gather gather_S100000x64_S1200000x1_S1200000x64_1_0_n_n_0_1_164 y
      (broadcastInDim S1200000x1 ![0] bcast_S1200000_S1200000x1_0
        (select
          (cmpi CmpIPredicate.slt dst (broadcastInDim S1200000 ![] bcast_S_S1200000 (constantI S_ 32 0#32)))
          (addi dst (broadcastInDim S1200000 ![] bcast_S_S1200000 (constantI S_ 32 100000#32)))
          dst)))

/-- A vector of 64 entries as a [1, 64] row. -/
def asRow (v : FVec Ideal S64 .f32) : FVec Ideal S1x64 .f32 := shapeCast S1x64 v shapeCasts_S64_S1x64

/-- THE KERNEL'S RESULT as a function of its six arguments. -/
def result (x : FVec Ideal S100000x64 .f32) (src dst : IVec S1200000 32) (w : FVec Ideal S64x64 .f32) (g b : FVec Ideal S64 .f32) :
    S100000x64.Idx → Elt Ideal .f32 :=
  MainRegion.layer (aggregate (Prescale.scaled x (degColumn src)) src dst) (degColumn src) x w (asRow g) (asRow b)

variable (m : (ℓ : Loc nD τ sig) → Buf (Elt Ideal) ℓ) (ρ : Dev nD → PrngReg)

/-! ## The first host stretch -/

theorem entry0_arg0 (c : Dev nD) : V1 m ρ c main_arg0 = m ((c : Thread nD τ).loc main_arg0) := by
  show StableHlo.after hostOps0 (W0 m ρ c) (Proc.devRef .tc main_arg0) = _
  dsimp only [hostOps0]; after_results <;> rfl

theorem entry0_column (c : Dev nD) : V1 m ρ c main_v8 = degColumn (m ((c : Thread nD τ).loc main_arg1)) := by
  show StableHlo.after hostOps0 (W0 m ρ c) (Proc.devRef .tc main_v8) = _
  dsimp only [hostOps0]; after_results <;> rfl

theorem after0_arg (c : Dev nD) (b : Ref sig .tc) (h : StableHlo.after hostOps0 (W0 m ρ c) (Proc.devRef .tc b) = W0 m ρ c (Proc.devRef .tc b)) :
    W1 m ρ c (Proc.devRef .tc b) = m ((c : Thread nD τ).loc b) := h

theorem entry0_arg1 (c : Dev nD) : W1 m ρ c (Proc.devRef .tc main_arg1) = m ((c : Thread nD τ).loc main_arg1) :=
  after0_arg m ρ c main_arg1 (by dsimp only [hostOps0]; after_results <;> rfl)
theorem entry0_arg2 (c : Dev nD) : W1 m ρ c (Proc.devRef .tc main_arg2) = m ((c : Thread nD τ).loc main_arg2) :=
  after0_arg m ρ c main_arg2 (by dsimp only [hostOps0]; after_results <;> rfl)
theorem entry0_arg3 (c : Dev nD) : W1 m ρ c (Proc.devRef .tc main_arg3) = m ((c : Thread nD τ).loc main_arg3) :=
  after0_arg m ρ c main_arg3 (by dsimp only [hostOps0]; after_results <;> rfl)
theorem entry0_arg4 (c : Dev nD) : W1 m ρ c (Proc.devRef .tc main_arg4) = m ((c : Thread nD τ).loc main_arg4) :=
  after0_arg m ρ c main_arg4 (by dsimp only [hostOps0]; after_results <;> rfl)
theorem entry0_arg5 (c : Dev nD) : W1 m ρ c (Proc.devRef .tc main_arg5) = m ((c : Thread nD τ).loc main_arg5) :=
  after0_arg m ρ c main_arg5 (by dsimp only [hostOps0]; after_results <;> rfl)

/-! ## After the pre-scaling region -/

theorem exit0_scaled (c : Dev nD) : W2 m ρ c (Proc.devRef .tc main_v9)
    = Prescale.scaled (m ((c : Thread nD τ).loc main_arg0)) (degColumn (m ((c : Thread nD τ).loc main_arg1))) := by
  refine (W2_arr m ρ c 2).trans ((Prescale.array_eq (V1 m ρ) c).trans ?_)
  rw [entry0_arg0, entry0_column]

theorem exit0_column (c : Dev nD) : W2 m ρ c (Proc.devRef .tc main_v8) = degColumn (m ((c : Thread nD τ).loc main_arg1)) :=
  (W2_arr m ρ c 1).trans (((dat0 (V1 m ρ) c).arrAt_in 1 rfl _).trans ((A_eq0 (V1 m ρ) c 1).trans (entry0_column m ρ c)))

theorem exit0_arg0 (c : Dev nD) : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (entry0_arg0 m ρ c)))

theorem exit0_arg1 (c : Dev nD) : W2 m ρ c (Proc.devRef .tc main_arg1) = m ((c : Thread nD τ).loc main_arg1) :=
  (W2_of_ne m ρ c main_arg1 (by decide)).trans (entry0_arg1 m ρ c)
theorem exit0_arg2 (c : Dev nD) : W2 m ρ c (Proc.devRef .tc main_arg2) = m ((c : Thread nD τ).loc main_arg2) :=
  (W2_of_ne m ρ c main_arg2 (by decide)).trans (entry0_arg2 m ρ c)
theorem exit0_arg3 (c : Dev nD) : W2 m ρ c (Proc.devRef .tc main_arg3) = m ((c : Thread nD τ).loc main_arg3) :=
  (W2_of_ne m ρ c main_arg3 (by decide)).trans (entry0_arg3 m ρ c)
theorem exit0_arg4 (c : Dev nD) : W2 m ρ c (Proc.devRef .tc main_arg4) = m ((c : Thread nD τ).loc main_arg4) :=
  (W2_of_ne m ρ c main_arg4 (by decide)).trans (entry0_arg4 m ρ c)
theorem exit0_arg5 (c : Dev nD) : W2 m ρ c (Proc.devRef .tc main_arg5) = m ((c : Thread nD τ).loc main_arg5) :=
  (W2_of_ne m ρ c main_arg5 (by decide)).trans (entry0_arg5 m ρ c)

/-! ## The second host stretch -/

theorem entry1_aggregate (c : Dev nD) : V3 m ρ c main_v19
    = aggregate (Prescale.scaled (m ((c : Thread nD τ).loc main_arg0)) (degColumn (m ((c : Thread nD τ).loc main_arg1))))
        (m ((c : Thread nD τ).loc main_arg1)) (m ((c : Thread nD τ).loc main_arg2)) := by
  have h : V3 m ρ c main_v19 = aggregate (W2 m ρ c (Proc.devRef .tc main_v9)) (W2 m ρ c (Proc.devRef .tc main_arg1)) (W2 m ρ c (Proc.devRef .tc main_arg2)) := by
    show StableHlo.after hostOps1 (W2 m ρ c) (Proc.devRef .tc main_v19) = _
    dsimp only [hostOps1]; after_results <;> rfl
  rw [h, exit0_scaled, exit0_arg1, exit0_arg2]

theorem entry1_column (c : Dev nD) : V3 m ρ c main_v8 = degColumn (m ((c : Thread nD τ).loc main_arg1)) := by
  have h : V3 m ρ c main_v8 = W2 m ρ c (Proc.devRef .tc main_v8) := by
    show StableHlo.after hostOps1 (W2 m ρ c) (Proc.devRef .tc main_v8) = _
    dsimp only [hostOps1]; after_results <;> rfl
  rw [h, exit0_column]

theorem entry1_arg0 (c : Dev nD) : V3 m ρ c main_arg0 = m ((c : Thread nD τ).loc main_arg0) := by
  have h : V3 m ρ c main_arg0 = W2 m ρ c (Proc.devRef .tc main_arg0) := by
    show StableHlo.after hostOps1 (W2 m ρ c) (Proc.devRef .tc main_arg0) = _
    dsimp only [hostOps1]; after_results <;> rfl
  rw [h, exit0_arg0]

theorem entry1_arg3 (c : Dev nD) : V3 m ρ c main_arg3 = m ((c : Thread nD τ).loc main_arg3) := by
  have h : V3 m ρ c main_arg3 = W2 m ρ c (Proc.devRef .tc main_arg3) := by
    show StableHlo.after hostOps1 (W2 m ρ c) (Proc.devRef .tc main_arg3) = _
    dsimp only [hostOps1]; after_results <;> rfl
  rw [h, exit0_arg3]

theorem entry1_scale (c : Dev nD) : V3 m ρ c main_v20 = asRow (m ((c : Thread nD τ).loc main_arg4)) := by
  have h : V3 m ρ c main_v20 = asRow (W2 m ρ c (Proc.devRef .tc main_arg4)) := by
    show StableHlo.after hostOps1 (W2 m ρ c) (Proc.devRef .tc main_v20) = _
    dsimp only [hostOps1]; after_results <;> rfl
  rw [h, exit0_arg4]

theorem entry1_shift (c : Dev nD) : V3 m ρ c main_v21 = asRow (m ((c : Thread nD τ).loc main_arg5)) := by
  have h : V3 m ρ c main_v21 = asRow (W2 m ρ c (Proc.devRef .tc main_arg5)) := by
    show StableHlo.after hostOps1 (W2 m ρ c) (Proc.devRef .tc main_v21) = _
    dsimp only [hostOps1]; after_results <;> rfl
  rw [h, exit0_arg5]

/-! ## The result -/

/-- At the last boundary the result buffer holds `result` of the launch arrays. -/
theorem exit1_result (c : Dev nD) : W4 m ρ c (Proc.devRef .tc main_v22)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (ResultRun.result_at_exit m ρ c).trans ((MainRegion.array_eq (V3 m ρ) c).trans ?_)
  rw [entry1_aggregate, entry1_column, entry1_arg0, entry1_arg3, entry1_scale, entry1_shift]
  rfl

/-- THE KERNEL'S RUN: every weakly fair execution terminates with the result array at `result` of the launch arrays
    and the six arguments unchanged. -/
theorem run : θ_run defs (onTc (τ := τ) (main (F := Ideal))) ⟨m, fun _ => 0, ρ⟩ (fun r => ∀ c : Dev nD,
      r.2.mem ((c.tc : Thread nD τ).loc main_v22)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (exit1_result m ρ c), (h c).2⟩) (ResultRun.run_result m ρ)

end Cert.KernelIdeal.Whole

end
-- ==== Proof.ReferenceValue.lean ====
/-
  The reference at one element.  The reference computes the same layer on whole arrays: the rescaled aggregated
  features times the weights (a host dot product: the plain sum over the 64 contracted columns) plus the residual,
  each row's mean and variance by host sums from zero over the 64 columns, divided by 64.0, and the normalised row
  scaled, shifted and clamped at zero.  Read at node `r`, lane `q`, its result is `GcnRow.normRelu (GcnRow.conv …)` of row
  `r` of its own aggregated-feature array, the node's inverse square-root degree, the weights and row `r` of the features.
-/
import proofs.«114904_j84954453115089_2_alg».proof.Proof.Gen.ReferenceIdeal.Read
import proofs.«114904_j84954453115089_2_alg».proof.Proof.RowNorm
import Idealize.ShloMosaic.Lib.ValueIdx
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Read Cert.GcnRow
open scoped BigOperators

variable (x0 : (⟨S100000x64, .f32⟩ : BufTy).Contents (Elt Ideal)) (x1 x2 : (⟨S1200000, .i32⟩ : BufTy).Contents (Elt Ideal))
  (x3 : (⟨S64x64, .f32⟩ : BufTy).Contents (Elt Ideal)) (x4 x5 : (⟨S64, .f32⟩ : BufTy).Contents (Elt Ideal))

/-- The node's scale broadcast along the lanes reads the node's inverse square-root degree. -/
theorem scale_apply (r : Fin 100000) (j : Fin 64) :
    val_main_v22 (F := Ideal) x1 (ix2 r j) = val_main_v7 (F := Ideal) x1 (ix1 r) := by
  rw [val_main_v22_apply, val_main_v21_apply]
  exact congrArg (val_main_v7 (F := Ideal) x1) (funext fun a => Fin.ext (by match a with | ⟨0, _⟩ => rfl))

/-- The pre-normalisation array at `(r, k)` is the graph-convolution row of node `r`. -/
theorem conv_apply (r : Fin 100000) (k : Fin 64) :
    val_main_v25 (F := Ideal) x0 x1 x2 x3 (ix2 r k)
      = conv (fun j => val_main_v20 (F := Ideal) x0 x1 x2 (ix2 r j)) (val_main_v7 (F := Ideal) x1 (ix1 r))
          (fun j k => x3 (ix2 j k)) (fun k => x0 (ix2 r k)) k := by
  rw [val_main_v25_apply, val_main_v24_apply, Ideal.addf_def]
  unfold conv
  refine congrArg (· + x0 (ix2 r k)) (Finset.sum_congr rfl fun j _ => ?_)
  have el : lidx_main_v24 (ix2 r k) j = ix2 r j := funext fun a => Fin.ext (by match a with | ⟨0, _⟩ => rfl | ⟨1, _⟩ => rfl)
  have er : ridx_main_v24 (ix2 r k) j = ix2 j k := funext fun a => Fin.ext (by match a with | ⟨0, _⟩ => rfl | ⟨1, _⟩ => rfl)
  rw [el, er, val_main_v23_apply, scale_apply, Ideal.mulf_def]

/-- The rows' means, as the column the reference keeps them in. -/
theorem mean_apply (r : Fin 100000) :
    val_main_v29 (F := Ideal) x0 x1 x2 x3 (ix2 r (0 : Fin 1)) = mean (fun k => val_main_v25 (F := Ideal) x0 x1 x2 x3 (ix2 r k)) := by
  rw [val_main_v29_apply, val_main_v27_apply, val_main_v26_apply, val_main_v28_apply, val_main_cst_6_apply, val_main_cst_5_apply,
    Ideal.hostDivf_def, Ideal.ofBits_def, Ideal.ofBits_def, Ideal.ofBits_zero_f32, zero_add]
  unfold mean
  refine congrArg (Ideal.div · lanes) (Finset.sum_congr rfl fun k _ => congrArg _ ?_)
  exact funext fun a => Fin.ext (by match a with | ⟨0, _⟩ => rfl | ⟨1, _⟩ => rfl)

/-- The centred array at `(r, k)` (the reference forms it twice, for the variance and for the output). -/
theorem centred_apply (r : Fin 100000) (k : Fin 64) :
    val_main_v31 (F := Ideal) x0 x1 x2 x3 (ix2 r k)
      = val_main_v25 (F := Ideal) x0 x1 x2 x3 (ix2 r k) - mean (fun k => val_main_v25 (F := Ideal) x0 x1 x2 x3 (ix2 r k)) := by
  rw [val_main_v31_apply, val_main_v30_apply, Ideal.subf_def, ← mean_apply]
  exact congrArg (_ - val_main_v29 (F := Ideal) x0 x1 x2 x3 ·) (funext fun a => Fin.ext (by match a with | ⟨0, _⟩ => rfl | ⟨1, _⟩ => rfl))

theorem centred_apply' (r : Fin 100000) (k : Fin 64) :
    val_main_v38 (F := Ideal) x0 x1 x2 x3 (ix2 r k)
      = val_main_v25 (F := Ideal) x0 x1 x2 x3 (ix2 r k) - mean (fun k => val_main_v25 (F := Ideal) x0 x1 x2 x3 (ix2 r k)) := by
  rw [val_main_v38_apply, val_main_v37_apply, Ideal.subf_def, ← mean_apply]
  exact congrArg (_ - val_main_v29 (F := Ideal) x0 x1 x2 x3 ·) (funext fun a => Fin.ext (by match a with | ⟨0, _⟩ => rfl | ⟨1, _⟩ => rfl))

/-- The rows' variances, as the column the reference keeps them in. -/
theorem variance_apply (r : Fin 100000) :
    val_main_v36 (F := Ideal) x0 x1 x2 x3 (ix2 r (0 : Fin 1)) = variance (fun k => val_main_v25 (F := Ideal) x0 x1 x2 x3 (ix2 r k)) := by
  rw [val_main_v36_apply, val_main_v34_apply, val_main_v33_apply, val_main_v35_apply, val_main_cst_8_apply, val_main_cst_7_apply,
    Ideal.hostDivf_def, Ideal.ofBits_def, Ideal.ofBits_def, Ideal.ofBits_zero_f32, zero_add]
  unfold variance
  refine congrArg (Ideal.div · lanes) (Finset.sum_congr rfl fun k _ => ?_)
  have e : idx_main_v33 (idx_main_v34 (ix2 r (0 : Fin 1))) k = ix2 r k :=
    funext fun a => Fin.ext (by match a with | ⟨0, _⟩ => rfl | ⟨1, _⟩ => rfl)
  rw [e, val_main_v32_apply, Ideal.mulf_def, centred_apply]

/-- THE REFERENCE AT AN ELEMENT. -/
theorem result_apply (r : Fin 100000) (q : Fin 64) :
    val_main_v50 (F := Ideal) x0 x1 x2 x3 x4 x5 (ix2 r q)
      = normRelu (conv (fun j => val_main_v20 (F := Ideal) x0 x1 x2 (ix2 r j)) (val_main_v7 (F := Ideal) x1 (ix1 r))
            (fun j k => x3 (ix2 j k)) (fun k => x0 (ix2 r k)))
          (fun k => x4 (ix1 k)) (fun k => x5 (ix1 k)) q := by
  have hconv : (fun k => val_main_v25 (F := Ideal) x0 x1 x2 x3 (ix2 r k))
      = conv (fun j => val_main_v20 (F := Ideal) x0 x1 x2 (ix2 r j)) (val_main_v7 (F := Ideal) x1 (ix1 r))
          (fun j k => x3 (ix2 j k)) (fun k => x0 (ix2 r k)) := funext fun k => conv_apply x0 x1 x2 x3 r k
  rw [← hconv]
  rw [val_main_v50_apply, val_main_v49_apply, val_main_v46_apply, val_main_v43_apply, centred_apply',
    val_main_v42_apply, val_main_v41_apply, val_main_v40_apply, val_main_v39_apply, val_main_cst_9_apply,
    val_main_v45_apply, val_main_v44_apply, val_main_v48_apply, val_main_v47_apply,
    val_main_call0_v0_apply, val_main_call0_cst_apply]
  have e36 : idx_main_v42 (ix2 r q) = ix2 r (0 : Fin 1) := funext fun a => Fin.ext (by match a with | ⟨0, _⟩ => rfl | ⟨1, _⟩ => rfl)
  have e4 : idx_main_v44 (idx_main_v45 (ix2 r q)) = ix1 q := funext fun a => Fin.ext (by match a with | ⟨0, _⟩ => rfl)
  have e5 : idx_main_v47 (idx_main_v48 (ix2 r q)) = ix1 q := funext fun a => Fin.ext (by match a with | ⟨0, _⟩ => rfl)
  rw [e36, e4, e5, variance_apply]
  rfl

end Cert.ReferenceIdeal.RefValue

end
-- ==== Proof.Bridge.lean ====
/-
  The two results are one function.  Both programs apply the SAME host functions to the same index arrays — the
  degree computation, the gather by destination, the scatter-add by source — so those are compared as whole terms
  and never opened; what differs is only how the dense part is laid out.  The kernel's pre-scaled array is the
  reference's product with the broadcast degree column (the reshape to a column and the two broadcasts read the same
  entry); and at every node and lane both results are `GcnRow.normRelu (GcnRow.conv …)` of the same row data.
-/
import proofs.«114904_j84954453115089_2_alg».proof.Proof.KernelValue
import proofs.«114904_j84954453115089_2_alg».proof.Proof.ReferenceValue
import proofs.«114904_j84954453115089_2_alg».proof.Proof.LibColumns
import Idealize.ShloMosaic.Lib.ValueLayout

set_option maxRecDepth 16384

noncomputable section

namespace Cert.Bridge

open Idealize.ShloMosaic Idealize.ShloMosaic.ValueIdx
open Cert.KernelIdeal (S100000x64 S1200000 S64x64 S64 S100000x1 S1x64 S100000)
open Cert.KernelIdeal.Whole Cert.KernelIdeal.Prescale Cert.KernelIdeal.MainRegion Cert.ReferenceIdeal.Read Cert.GcnRow

variable (x : FVec Ideal S100000x64 .f32) (src dst : IVec S1200000 32) (w : FVec Ideal S64x64 .f32) (g b : FVec Ideal S64 .f32)

/-- The inverse square-root degrees are the same host term in both programs. -/
theorem invSqrtDeg_eq : invSqrtDeg src = val_main_v7 (F := Ideal) src := rfl

/-- The degree column at node `r` is the node's inverse square-root degree. -/
theorem column_apply (r : Fin 100000) : degColumn src (ix2 r (0 : Fin 1)) = val_main_v7 (F := Ideal) src (ix1 r) := by
  unfold degColumn
  rw [Cert.Columns.shapeCast_a_a1_apply, invSqrtDeg_eq]

/-- The pre-scaling region's array is the reference's rescaled feature array. -/
theorem scaled_eq : scaled x (degColumn src) = val_main_v10 (F := Ideal) x src := by
  funext i
  obtain ⟨r, j, rfl⟩ : ∃ (r : Fin 100000) (j : Fin 64), i = ix2 r j := ⟨i 0, i 1, eq_ix2 i⟩
  rw [val_main_v10_apply, val_main_v9_apply, val_main_v8_apply, Ideal.mulf_def]
  show x (ix2 r j) * degColumn src (ix2 r (0 : Fin 1)) = _
  rw [column_apply]
  exact congrArg (x (ix2 r j) * val_main_v7 (F := Ideal) src ·) (funext fun a => Fin.ext (by match a with | ⟨0, _⟩ => rfl))

/-- The aggregated features are the same host term of the same arrays. -/
theorem aggregate_eq : aggregate (scaled x (degColumn src)) src dst = val_main_v20 (F := Ideal) x src dst := by
  rw [scaled_eq]
  rfl

/-- THE KERNEL'S RESULT IS THE REFERENCE'S, element by element. -/
theorem result_eq : result x src dst w g b = val_main_v50 (F := Ideal) x src dst w g b := by
  funext i
  obtain ⟨r, q, rfl⟩ : ∃ (r : Fin 100000) (q : Fin 64), i = ix2 r q := ⟨i 0, i 1, eq_ix2 i⟩
  rw [Cert.ReferenceIdeal.RefValue.result_apply]
  show normRelu (conv (fun j => aggregate (scaled x (degColumn src)) src dst (ix2 r j)) (degColumn src (ix2 r (0 : Fin 1)))
        (fun j k => w (ix2 j k)) (fun k => x (ix2 r k)))
      (fun k => asRow g (ix2 (0 : Fin 1) k)) (fun k => asRow b (ix2 (0 : Fin 1) k)) q = _
  have hg : (fun k : Fin 64 => asRow g (ix2 (0 : Fin 1) k)) = fun k => g (ix1 k) :=
    funext fun k => shapeCast_a_1a_apply g _ 0 k
  have hb : (fun k : Fin 64 => asRow b (ix2 (0 : Fin 1) k)) = fun k => b (ix1 k) :=
    funext fun k => shapeCast_a_1a_apply b _ 0 k
  rw [aggregate_eq, column_apply, hg, hb]

end Cert.Bridge

end
-- ==== Proof.lean ====
/- The certificate of a graph-convolution layer with layer normalisation.  The kernel computes, for a graph of
   100000 nodes with 64 features and 1200000 edges given as source and destination index arrays,
       out = ReLU (LayerNorm_γβ ((D^{-1/2} A D^{-1/2} X) W + X)),
   with `D` the (clamped) degrees counted by source index and `A` applied as a gather by destination followed by a
   scatter-add by source.  It does so in four steps: the degrees on the host; `X · D^{-1/2}` row by row in a first
   tiled region; the gather and the scatter-add on the host; and, in a second tiled region, the second rescaling, the
   product with the weights (in bf16, which is the identity on the extended reals), the residual, the layer norm over
   each row's 64 lanes and the ReLU.  The reference computes the same expression on whole arrays.

   `algebraic`: at the ideal instance the two results are equal element by element.  The host computations are the same
   functions of the same arrays in both programs and are compared whole; the dense part is row-local, and at node `r`,
   lane `q` both programs give `GcnRow.normRelu (GcnRow.conv …)` of row `r` (Proof/RowNorm.lean) — the kernel through its
   blocks of 10000 rows (Proof/PrescaleValue.lean, Proof/MainValue.lean over Proof/MainPayload.lean, chained through
   the segments of @main in Proof/KernelValue.lean over the run of Proof/KernelRun.lean), the reference through its
   whole-array operations (Proof/ReferenceValue.lean); Proof/Bridge.lean joins them.  No algebraic law is used, so the
   precondition (finite inputs) is never opened.
   `preserves`: the idealization rewrote no operation, so there is nothing to state.
   The three frames: both kernels' by the imported frame modules, the reference's from its run. -/
import proofs.«114904_j84954453115089_2_alg».proof.Defs
import proofs.«114904_j84954453115089_2_alg».proof.Proof.Gen.Kernel
import proofs.«114904_j84954453115089_2_alg».proof.Proof.Gen.Kernel.Skeleton
import proofs.«114904_j84954453115089_2_alg».proof.Proof.Gen.Kernel.Launch
import proofs.«114904_j84954453115089_2_alg».proof.Proof.Gen.Kernel.Points
import proofs.«114904_j84954453115089_2_alg».proof.Proof.Gen.Kernel.Frame
import proofs.«114904_j84954453115089_2_alg».proof.Proof.Gen.KernelIdeal
import proofs.«114904_j84954453115089_2_alg».proof.Proof.Gen.KernelIdeal.Skeleton
import proofs.«114904_j84954453115089_2_alg».proof.Proof.Gen.KernelIdeal.Launch
import proofs.«114904_j84954453115089_2_alg».proof.Proof.Gen.KernelIdeal.Points
import proofs.«114904_j84954453115089_2_alg».proof.Proof.Gen.KernelIdeal.Frame
import proofs.«114904_j84954453115089_2_alg».proof.Proof.Gen.ReferenceIdeal
import proofs.«114904_j84954453115089_2_alg».proof.Proof.Gen.Pre_finite_inputs
import proofs.«114904_j84954453115089_2_alg».proof.Proof.Gen.ReferenceIdeal.Run
import proofs.«114904_j84954453115089_2_alg».proof.Proof.Gen.ReferenceIdeal.Read
import proofs.«114904_j84954453115089_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the six arguments the two idealized programs end with the same result array: the kernel's
    run ends at `Whole.result` of its launch arrays, the reference's at its last stage of its own, and the two are one
    function (`Bridge.result_eq`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2.1,
    (hagree c).2.2.2.2.1, (hagree c).2.2.2.2.2]
  exact (Cert.Bridge.result_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
